-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x64 : Shape := ⟨3, ![32, 2048, 64]⟩
abbrev S32x2048x2048 : Shape := ⟨3, ![32, 2048, 2048]⟩
abbrev S_ : Shape := ⟨0, ![]⟩

class Facts : Prop where
  bcast_S_S32x2048x64 : S_.BroadcastsInDim S32x2048x64 (![] : Fin 0 → Fin S32x2048x64.rank)
  reducesTo_S32x2048x64_S_d0_1_2 : S32x2048x64.ReducesTo [0, 1, 2] S_
  h_S_ : 0 < S_.numel

variable [Facts]

def fn {F : FTy → Type} [FloatOps F] (main_arg0 : FVec F S32x2048x64 .f32) (main_arg1 : FVec F S32x2048x64 .f32) (main_arg2 : FVec F S32x2048x64 .f32) (main_arg3 : IVec S32x2048x2048 1) : IVec S_ 1 :=
  let main_v0 : FVec F S32x2048x64 .f32 := Host.absf main_arg0
  let main_cst : FVec F S_ .f32 := constant S_ .f32 0x7F800000#32
  let main_v1 : FVec F S32x2048x64 .f32 := broadcastInDim S32x2048x64 ![] bcast_S_S32x2048x64 main_cst
  let main_v2 : IVec S32x2048x64 1 := cmpf .olt main_v0 main_v1
  let main_c : IVec S_ 1 := constantI S_ 1 1#1
  let main_v3 : IVec S_ 1 := (fun x v => Host.reduce IntOp.andi x v reducesTo_S32x2048x64_S_d0_1_2 h_S_) main_v2 main_c
  let main_v4 : FVec F S32x2048x64 .f32 := Host.absf main_arg1
  let main_cst_0 : FVec F S_ .f32 := constant S_ .f32 0x7F800000#32
  let main_v5 : FVec F S32x2048x64 .f32 := broadcastInDim S32x2048x64 ![] bcast_S_S32x2048x64 main_cst_0
  let main_v6 : IVec S32x2048x64 1 := cmpf .olt main_v4 main_v5
  let main_c_1 : IVec S_ 1 := constantI S_ 1 1#1
  let main_v7 : IVec S_ 1 := (fun x v => Host.reduce IntOp.andi x v reducesTo_S32x2048x64_S_d0_1_2 h_S_) main_v6 main_c_1
  let main_v8 : IVec S_ 1 := andi main_v3 main_v7
  let main_v9 : FVec F S32x2048x64 .f32 := Host.absf main_arg2
  let main_cst_2 : FVec F S_ .f32 := constant S_ .f32 0x7F800000#32
  let main_v10 : FVec F S32x2048x64 .f32 := broadcastInDim S32x2048x64 ![] bcast_S_S32x2048x64 main_cst_2
  let main_v11 : IVec S32x2048x64 1 := cmpf .olt main_v9 main_v10
  let main_c_3 : IVec S_ 1 := constantI S_ 1 1#1
  let main_v12 : IVec S_ 1 := (fun x v => Host.reduce IntOp.andi x v reducesTo_S32x2048x64_S_d0_1_2 h_S_) main_v11 main_c_3
  let main_v13 : IVec S_ 1 := andi main_v8 main_v12
  main_v13
-- ==== Kernel.lean ====
abbrev S32x2048x64 : Shape := ⟨3, ![32, 2048, 64]⟩
abbrev S32x2048x2048 : Shape := ⟨3, ![32, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S64x2048 : Shape := ⟨2, ![64, 2048]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x2048, .i1⟩
  | .hbm, ⟨4, _⟩ => ⟨S32x2048x64, .bf16⟩
  | .hbm, ⟨5, _⟩ => ⟨S32x2048x64, .bf16⟩
  | .hbm, ⟨6, _⟩ => ⟨S32x2048x2048, .i32⟩
  | .hbm, ⟨7, _⟩ => ⟨S32x2048x64, .f32⟩
  | .hbm, ⟨8, _⟩ => ⟨S32x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .bf16⟩
  | .local _ .vmem, ⟨3, _⟩ => ⟨S1x2048x64, .bf16⟩
  | .local _ .vmem, ⟨4, _⟩ => ⟨S1x2048x64, .bf16⟩
  | .local _ .vmem, ⟨5, _⟩ => ⟨S1x2048x64, .bf16⟩
  | .local _ .vmem, ⟨6, _⟩ => ⟨S1x512x2048, .i32⟩
  | .local _ .vmem, ⟨7, _⟩ => ⟨S1x512x2048, .i32⟩
  | .local _ .vmem, ⟨8, _⟩ => ⟨S1x512x64, .f32⟩
  | .local _ .vmem, ⟨9, _⟩ => ⟨S1x512x64, .f32⟩
  | .local _ .vmem, ⟨10, _⟩ => ⟨S1x512x2048, .f32⟩
  | .local _ .vmem, ⟨11, _⟩ => ⟨S1x512x2048, .f32⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bitsLt_bf16_f32 : FTy.bits .bf16 < FTy.bits .f32
  natLt_1_32 : 1 < 32
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  shapeCasts_S512x2048_S1x512x2048 : S512x2048.ShapeCasts S1x512x2048
  shapeCasts_S512x64_S1x512x64 : S512x64.ShapeCasts S1x512x64
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .f32 = 32 ∨ (Rect.block (s := S32x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .bf16 = 32 ∨ (Rect.block (s := S32x2048x64) S1x2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .bf16 = 32 ∨ (Rect.block (s := S32x2048x64) S1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S32x2048x2048.size a
  hwx0_3 : ∀ i : grid0.Coords, EltTy.bits .i32 = 32 ∨ (Rect.block (s := S32x2048x2048) S1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S32x2048x64.size a
  hwx0_4 : ∀ i : grid0.Coords, EltTy.bits .f32 = 32 ∨ (Rect.block (s := S32x2048x64) S1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S32x2048x2048.size a
  hwx0_5 : ∀ i : grid0.Coords, EltTy.bits .f32 = 32 ∨ (Rect.block (s := S32x2048x2048) S1x512x2048.size (cc0_transform_5 i) (hinb0_5 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x2048x64 : Shape := ⟨3, ![32, 2048, 64]⟩
abbrev S32x2048x2048 : Shape := ⟨3, ![32, 2048, 2048]⟩
abbrev S_ : Shape := ⟨0, ![]⟩
abbrev S32x2048 : Shape := ⟨2, ![32, 2048]⟩
abbrev S32x2048x1 : Shape := ⟨3, ![32, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x2048, .i1⟩
  | .hbm, ⟨4, _⟩ => ⟨S32x2048x2048, .f32⟩
  | .hbm, ⟨5, _⟩ => ⟨S_, .f32⟩
  | .hbm, ⟨6, _⟩ => ⟨S_, .f32⟩
  | .hbm, ⟨7, _⟩ => ⟨S32x2048x2048, .f32⟩
  | .hbm, ⟨8, _⟩ => ⟨S32x2048x2048, .f32⟩
  | .hbm, ⟨9, _⟩ => ⟨S_, .f32⟩
  | .hbm, ⟨10, _⟩ => ⟨S32x2048x2048, .f32⟩
  | .hbm, ⟨11, _⟩ => ⟨S32x2048x2048, .f32⟩
  | .hbm, ⟨12, _⟩ => ⟨S_, .f32⟩
  | .hbm, ⟨13, _⟩ => ⟨S32x2048, .f32⟩
  | .hbm, ⟨14, _⟩ => ⟨S_, .f32⟩
  | .hbm, ⟨15, _⟩ => ⟨S32x2048, .f32⟩
  | .hbm, ⟨16, _⟩ => ⟨S32x2048, .f32⟩
  | .hbm, ⟨17, _⟩ => ⟨S32x2048x1, .f32⟩
  | .hbm, ⟨18, _⟩ => ⟨S32x2048x2048, .f32⟩
  | .hbm, ⟨19, _⟩ => ⟨S32x2048x2048, .f32⟩
  | .hbm, ⟨20, _⟩ => ⟨S32x2048x2048, .f32⟩
  | .hbm, ⟨21, _⟩ => ⟨S_, .f32⟩
  | .hbm, ⟨22, _⟩ => ⟨S32x2048, .f32⟩
  | .hbm, ⟨23, _⟩ => ⟨S32x2048x1, .f32⟩
  | .hbm, ⟨24, _⟩ => ⟨S32x2048x2048, .f32⟩
  | .hbm, ⟨25, _⟩ => ⟨S32x2048x2048, .f32⟩
  | .hbm, ⟨26, _⟩ => ⟨S32x2048x64, .f32⟩
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_call0_v0 : Ref sig .tc := ⟨.hbm, 6, rfl⟩
abbrev main_call0_v1 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S_S32x2048x2048 : S_.BroadcastsInDim S32x2048x2048 (![] : Fin 0 → Fin S32x2048x2048.rank)
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  dot_S32x2048x64_S32x2048x64_S32x2048x2048_2_2_1_1_0_0_wf : DotDims.WF S32x2048x64 S32x2048x64 S32x2048x2048 [2] [2] [1] [1] [0] [0]
  dot_S32x2048x2048_S32x2048x64_S32x2048x64_2_1_1_2_0_0_wf : DotDims.WF S32x2048x2048 S32x2048x64 S32x2048x64 [2] [1] [1] [2] [0] [0]

variable [Facts₀]

def dot_S32x2048x64_S32x2048x64_S32x2048x2048_2_2_1_1_0_0 : DotDims S32x2048x64 S32x2048x64 S32x2048x2048 where
  lhsContracting := [2]
  rhsContracting := [2]
  lhsNonContracting := [1]
  rhsNonContracting := [1]
  lhsBatch := [0]
  rhsBatch := [0]
  wf := dot_S32x2048x64_S32x2048x64_S32x2048x2048_2_2_1_1_0_0_wf
def dot_S32x2048x2048_S32x2048x64_S32x2048x64_2_1_1_2_0_0 : DotDims S32x2048x2048 S32x2048x64 S32x2048x64 where
  lhsContracting := [2]
  rhsContracting := [1]
  lhsNonContracting := [1]
  rhsNonContracting := [2]
  lhsBatch := [0]
  rhsBatch := [0]
  wf := dot_S32x2048x2048_S32x2048x64_S32x2048x64_2_1_1_2_0_0_wf

class Facts : Prop extends Facts₀ where

variable [Facts]
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.LibKeepdims.lean ====
/-
  Two layout readings a row reduction with `keepdims` needs: a vector of `a` entries viewed as a column `[a, 1]`, and that
  column repeated along `b` columns. Each reads, at an index given by its coordinates, one entry of the operand.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibRows.lean ====
/-
  General readings of matrix operations at an entry given by its row and column.

  * Two matrices with the same rows laid side by side (a concatenation along the columns): a column below the first
    piece's width reads the first piece at that column, a column from that width on reads the second piece at the
    column less the width.
  * A reduction of a matrix along its columns, read at a row, at the ideal values: with `max` it is the fold of `max`
    over the row's entries from the starting word's value; with `add` it is the plain sum of the row's entries.
  * A vector of one entry per row, viewed as a column and repeated along the columns, reads the row's entry.
-/
import proofs.«105021_j11304353923418_2_alg».proof.Proof.LibKeepdims
import Idealize.ShloMosaic.Lib.Pipeline.Value
import Idealize.ShloMosaic.Lib.ValueIdx
import Idealize.ShloMosaic.PureOps.Ideal.Laws

noncomputable section

open scoped BigOperators

namespace Cert.LibRows

open Idealize.ShloMosaic Idealize.ShloMosaic.ValueIdx

section Concatenate
variable {α : Type}

/-- Side by side, a column inside the first piece reads the first piece there. -/
theorem concat_cols_left {n a b c : Nat} (x₁ : (⟨2, ![n, a]⟩ : Shape).Idx → α) (x₂ : (⟨2, ![n, b]⟩ : Shape).Idx → α)
    (h : Shape.Concatenates [⟨2, ![n, a]⟩, ⟨2, ![n, b]⟩] ⟨2, ![n, c]⟩ 1) (r : Fin n) (j : Fin c) (hj : j.val < a) :
    concatenate ⟨2, ![n, c]⟩ 1 [⟨⟨2, ![n, a]⟩, x₁⟩, ⟨⟨2, ![n, b]⟩, x₂⟩] h (ix2 r j) = x₁ (ix2 r ⟨j.val, hj⟩) :=
  concatenate_pair_apply_left (1 : Fin 2) x₁ x₂ h (ix2 r j) rfl (ix2 r ⟨j.val, hj⟩) fun ax => by
    match ax with
    | ⟨0, _⟩ => rfl
    | ⟨1, _⟩ => rfl

/-- Side by side, a column past the first piece reads the second piece at the column less the first piece's width. -/
theorem concat_cols_right {n a b c : Nat} (x₁ : (⟨2, ![n, a]⟩ : Shape).Idx → α) (x₂ : (⟨2, ![n, b]⟩ : Shape).Idx → α)
    (h : Shape.Concatenates [⟨2, ![n, a]⟩, ⟨2, ![n, b]⟩] ⟨2, ![n, c]⟩ 1) (r : Fin n) (j : Fin c) (hj : a ≤ j.val)
    (hb : j.val - a < b) :
    concatenate ⟨2, ![n, c]⟩ 1 [⟨⟨2, ![n, a]⟩, x₁⟩, ⟨⟨2, ![n, b]⟩, x₂⟩] h (ix2 r j) = x₂ (ix2 r ⟨j.val - a, hb⟩) :=
  concatenate_pair_apply_right (1 : Fin 2) x₁ x₂ h (ix2 r j) rfl rfl (ix2 r ⟨j.val - a, hb⟩)
    (fun ax hne => by
      match ax with
      | ⟨0, _⟩ => rfl
      | ⟨1, _⟩ => exact absurd rfl hne)
    (by show j.val - a + a = j.val; omega)

end Concatenate

section Lanes
variable {φ : FTy}

/-- The source index over row `r` with column `k` is the entry `(r, k)`. -/
theorem lift_row {n m : Nat} (h : (⟨2, ![n, m]⟩ : Shape).Reduces [1] ⟨1, ![n]⟩) (r : Fin n) (k : Fin m) :
    h.lift (ix1 r) k = ix2 r k := by
  funext ax
  match ax with
  | ⟨0, _⟩ => exact Fin.ext rfl
  | ⟨1, _⟩ => exact Fin.ext rfl

/-- A `max` reduction along the columns, at a row: the fold of `max` over the row from the starting word's value. -/
theorem lane_max_apply {n m : Nat} (X : FVec Ideal ⟨2, ![n, m]⟩ φ) (acc : BitVec φ.bits)
    (h : (⟨2, ![n, m]⟩ : Shape).Reduces [1] ⟨1, ![n]⟩) (hφ : FKind.Formats φ) (hacc : acc = FKind.maximumf.neutral φ hφ)
    (r : Fin n) :
    multiReduction .maximumf [1] ⟨1, ![n]⟩ X acc h hφ hacc (ix1 r)
      = (Finset.univ : Finset (Fin m)).fold max (Ideal.ofBits φ acc) (fun j => X (ix2 r j)) := by
  refine (Ideal.multiReduction_maximumf_single X acc h hφ hacc (ix1 r)).trans ?_
  exact congrArg (fun f => (Finset.univ : Finset (Fin m)).fold max (Ideal.ofBits φ acc) f)
    (funext fun k => congrArg X (lift_row h r k))

/-- An `add` reduction along the columns, at a row: the plain sum of the row. -/
theorem lane_sum_apply {n m : Nat} (X : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (r : Fin n) :
    multiReduction .add [1] ⟨1, ![n]⟩ X acc h hφ hacc (ix1 r) = ∑ j : Fin m, X (ix2 r j) := by
  refine (Ideal.multiReduction_add_single X acc h hφ hacc (ix1 r)).trans ?_
  exact Finset.sum_congr rfl fun k _ => congrArg X (lift_row h r k)

end Lanes

section Keepdims
variable {α : Type}

/-- One entry per row, viewed as a column and repeated along the columns, reads the row's entry. -/
theorem column_broadcast_apply {n m : Nat} (y : (⟨1, ![n]⟩ : Shape).Idx → α)
    (hc : (⟨1, ![n]⟩ : Shape).ShapeCasts ⟨2, ![n, 1]⟩) (hb : (⟨2, ![n, 1]⟩ : Shape).Broadcasts ⟨2, ![n, m]⟩)
    (r : Fin n) (j : Fin m) :
    broadcastTo ⟨2, ![n, m]⟩ (shapeCast ⟨2, ![n, 1]⟩ y hc) hb (ix2 r j) = y (ix1 r) :=
  (Keepdims.broadcastTo_a1_ab_apply _ hb r j).trans (Keepdims.shapeCast_a_a1_apply y hc r 0)

end Keepdims

end Cert.LibRows

end
-- ==== Proof.LibFolds.lean ====
/-
  Folds and sums over the fibres of a reduction, and maxima of extended reals.

  A reduction over several axes reads, at a result index `j`, the source indices whose kept coordinates are `j`
  (the fibre of `j`). When the fibre is listed without repetition by a map `e` from a finite type, a sum or a
  commutative, associative fold over the fibre is the same sum or fold over that type. A fold of `max` from `⊥`
  commutes with every monotone map that fixes `⊥`, and over a nonempty family of real numbers it is a real number.
-/
import Idealize.ShloMosaic.PureOps.Ideal

namespace Cert.LibFolds

open Finset

section Fibre

variable {ι τ κ : Type} [Fintype ι] [Fintype κ]

/-- The fibre of `j` under `drop` is the image of a map `e` that lands in it and reaches all of it. -/
theorem filter_eq_image [DecidableEq ι] (drop : ι → τ) (j : τ) [DecidablePred fun i => drop i = j] (e : κ → ι)
    (hmem : ∀ k, drop (e k) = j) (hsurj : ∀ i, drop i = j → ∃ k, e k = i) :
    (univ.filter fun i => drop i = j) = univ.image e := by
  ext i
  simp only [mem_filter, mem_univ, true_and, mem_image]
  exact ⟨hsurj i, fun ⟨k, hk⟩ => hk ▸ hmem k⟩

/-- A sum over the fibre is the sum over the parameters of an injective listing of it. -/
theorem sum_fibre {M : Type} [AddCommMonoid M] (drop : ι → τ) (j : τ) [DecidablePred fun i => drop i = j] (e : κ → ι)
    (hinj : Function.Injective e) (hmem : ∀ k, drop (e k) = j) (hsurj : ∀ i, drop i = j → ∃ k, e k = i) (x : ι → M) :
    ∑ i ∈ univ.filter (fun i => drop i = j), x i = ∑ k, x (e k) := by
  classical
  rw [filter_eq_image drop j e hmem hsurj, sum_image fun a _ b _ h => hinj h]

/-- A commutative, associative fold over the fibre is the fold over the parameters of an injective listing of it. -/
theorem fold_fibre {α : Type} (op : α → α → α) [Std.Commutative op] [Std.Associative op] (b : α) (drop : ι → τ) (j : τ)
    [DecidablePred fun i => drop i = j] (e : κ → ι)
    (hinj : Function.Injective e) (hmem : ∀ k, drop (e k) = j) (hsurj : ∀ i, drop i = j → ∃ k, e k = i) (x : ι → α) :
    (univ.filter fun i => drop i = j).fold op b x = univ.fold op b (fun k => x (e k)) := by
  classical
  rw [filter_eq_image drop j e hmem hsurj, fold_image fun a _ b _ h => hinj h]
  rfl

end Fibre

section Max

variable {ι : Type}

/-- A fold of `max` from `⊥` commutes with a monotone map that fixes `⊥`. -/
theorem fold_max_map (g : EReal → EReal) (hg : Monotone g) (hb : g ⊥ = ⊥) (s : Finset ι) (f : ι → EReal) :
    s.fold max ⊥ (fun k => g (f k)) = g (s.fold max ⊥ f) := by
  classical
  induction s using Finset.induction_on with
  | empty => simp [hb]
  | insert a s ha ih => rw [fold_insert ha, fold_insert ha, ih, hg.map_max]

/-- A fold of `max` from `⊥` over pairs is the fold over the first coordinate of the folds over the second. -/
theorem fold_max_prod {α β : Type} [Fintype α] [Fintype β] (f : α × β → EReal) :
    (univ : Finset (α × β)).fold max ⊥ f = univ.fold max ⊥ fun a => univ.fold max ⊥ fun b => f (a, b) := by
  refine le_antisymm ?_ ?_
  · rw [fold_max_le]
    refine ⟨bot_le, fun p _ => ?_⟩
    rw [le_fold_max]
    refine Or.inr ⟨p.1, mem_univ _, ?_⟩
    rw [le_fold_max]
    exact Or.inr ⟨p.2, mem_univ _, le_rfl⟩
  · rw [fold_max_le]
    refine ⟨bot_le, fun a _ => ?_⟩
    rw [fold_max_le]
    refine ⟨bot_le, fun b _ => ?_⟩
    rw [le_fold_max]
    exact Or.inr ⟨(a, b), mem_univ _, le_rfl⟩

/-- An extended real that is a real number. -/
def IsReal (x : EReal) : Prop := ∃ r : ℝ, x = (r : EReal)

/-- The maximum of a nonempty finite family of real numbers is a real number. -/
theorem isReal_fold_max (s : Finset ι) (hs : s.Nonempty) (f : ι → EReal) (hf : ∀ k ∈ s, IsReal (f k)) :
    IsReal (s.fold max ⊥ f) := by
  classical
  induction hs using Finset.Nonempty.cons_induction with
  | singleton a =>
    obtain ⟨r, hr⟩ := hf a (mem_singleton_self a)
    exact ⟨r, by rw [fold_singleton, hr, max_eq_left bot_le]⟩
  | cons a s ha hs ih =>
    obtain ⟨r, hr⟩ := hf a (mem_cons_self a s)
    obtain ⟨p, hp⟩ := ih fun k hk => hf k (mem_cons.2 (Or.inr hk))
    exact ⟨max r p, by rw [fold_cons, hr, hp]; exact (EReal.coe_strictMono.monotone.map_max).symm⟩

end Max

/-- The sum of real numbers, read in the extended reals, is the sum of their readings. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [sum_insert ha, sum_insert ha, EReal.coe_add, ih]

end Cert.LibFolds
-- ==== Proof.LibSoftmaxRow.lean ====
/-
  The mathematics the two programs share, over the extended reals and with no program in sight.

  * The softmax of a row: each entry less the row's maximum, exponentiated, and divided by the sum of those
    exponentials. The maximum is the fold of max from the bottom element, so a row whose entries are all minus
    infinity has maximum minus infinity; both programs compute exactly this expression, corners included.
  * Scaling commutes with an inner product of REAL rows: the sum over d of (a d / 8) * b d is the sum over d of
    a d * b d, divided by 8. One eighth is an exact real, so this is the distributive law in the reals; it is the one
    place where the finiteness of the queries and keys is used (at an infinite entry the two sides can differ).
  * A masked score: where the mask bit is set the score is minus infinity, which dividing by 8 leaves alone; elsewhere
    it is the scaled inner product. So masking before or after the scaling gives the same extended real.
  * A one-bit word widened to 32 bits is different from zero exactly when the bit is set.
-/
import Idealize.ShloMosaic.PureOps.Ideal
import proofs.«105021_j11304353923418_2_alg».proof.Proof.LibFolds

noncomputable section

open scoped BigOperators

namespace Cert.Attn.Spec

open Idealize.ShloMosaic

/-- The softmax of a row of extended reals, at column `j`. -/
def rowSoftmax {n : ℕ} (f : Fin n → EReal) (j : Fin n) : EReal :=
  Ideal.div (Ideal.exp (f j - (Finset.univ : Finset (Fin n)).fold max ⊥ f))
    (∑ j' : Fin n, Ideal.exp (f j' - (Finset.univ : Finset (Fin n)).fold max ⊥ f))

/-- An inner product of real rows with the left row scaled by one eighth is the inner product divided by eight. -/
theorem scaled_dot {n : ℕ} (a b : Fin n → ℝ) :
    ∑ d : Fin n, ((a d : EReal) * ((1 / 8 : ℝ) : EReal)) * (b d : EReal)
      = Ideal.div (∑ d : Fin n, (a d : EReal) * (b d : EReal)) ((8 : ℝ) : EReal) := by
  rw [Ideal.div_coe (by norm_num : (8 : ℝ) ≠ 0)]
  simp only [← EReal.coe_mul]
  rw [← Cert.LibFolds.coe_sum, ← Cert.LibFolds.coe_sum, ← EReal.coe_mul]
  congr 1
  rw [Finset.sum_mul]
  exact Finset.sum_congr rfl fun d _ => by ring

/-- Masking a scaled inner product with minus infinity is dividing the masked inner product by eight. -/
theorem masked_score {n : ℕ} (c : BitVec 1) (a b : Fin n → ℝ) :
    Scalar.select c (⊥ : EReal) (∑ d : Fin n, ((a d : EReal) * ((1 / 8 : ℝ) : EReal)) * (b d : EReal))
      = Ideal.div (Scalar.select c (⊥ : EReal) (∑ d : Fin n, (a d : EReal) * (b d : EReal))) ((8 : ℝ) : EReal) := by
  unfold Scalar.select
  by_cases h : c = 1
  · rw [if_pos h, if_pos h, Ideal.div_coe (by norm_num : (8 : ℝ) ≠ 0)]
    exact (EReal.bot_mul_coe_of_pos (by norm_num)).symm
  · rw [if_neg h, if_neg h]
    exact scaled_dot a b

/-- A bit widened to a 32-bit word differs from the zero word exactly when it is set. -/
theorem widened_ne_zero : ∀ x : BitVec 1, IntOp.cmpi .ne (x.setWidth 32) 0#32 = x := by decide

end Cert.Attn.Spec

end
-- ==== Proof.Literals.lean ====
/-
  The float words the two programs spell, as the extended reals they denote.

  The kernel scales the queries by the word of 0.125 and the reference divides the masked scores by the word of 8.0;
  both programs mask with the word of minus infinity, which is the bottom of the extended reals, so that a maximum
  against it is the other operand. Each word is evaluated here once, and the other modules cite these equations.
-/
import Idealize.ShloMosaic.PureOps.Ideal

noncomputable section

namespace Cert.Attn.Literals

open Idealize.ShloMosaic

/-- The word of 0.125 denotes the real number one eighth. -/
theorem ofBits_eighth : Ideal.ofBits .f32 0x3E000000#32 = ((1 / 8 : ℝ) : EReal) := by
  simp [Ideal.ofBits, Ideal.ieee, -EReal.coe_mul]; norm_num

/-- The word of 8.0 denotes the real number eight. -/
theorem ofBits_eight : Ideal.ofBits .f32 0x41000000#32 = ((8 : ℝ) : EReal) := by
  simp [Ideal.ofBits, Ideal.ieee, -EReal.coe_mul]; norm_num

/-- The word of minus infinity denotes the bottom of the extended reals. -/
theorem ofBits_neg_inf : Ideal.ofBits .f32 0xFF800000#32 = ⊥ := by
  simp [Ideal.ofBits, Ideal.ieee]

end Cert.Attn.Literals

end
-- ==== Proof.KernelRow.lean ====
/-
  The kernel's body, entry by entry, as a function of the blocks it loads.

  From a block of 512 query rows, the 2048 key rows and the 512 x 2048 block of widened mask words of one batch, the
  body forms the masked score at (r, j): the inner product of query row r, each entry scaled by one eighth, with key
  row j, replaced by minus infinity where the mask word is not zero. What it stores to the attention block at (r, j)
  is the softmax of row r of these masked scores at column j: the lane maximum from minus infinity, the exponentials
  of the differences, their lane sum, the quotient. What it returns at (r, d) is the inner product over j of that
  softmax row with column d of the 2048 value rows. The two matrix products carry the plain dimension numbers, and a
  change of float format is the identity on extended reals.
-/
import proofs.«105021_j11304353923418_2_alg».proof.Proof.Gen.KernelIdeal.Skeleton
import proofs.«105021_j11304353923418_2_alg».proof.Proof.LibMatmulPlain
import proofs.«105021_j11304353923418_2_alg».proof.Proof.LibRows
import proofs.«105021_j11304353923418_2_alg».proof.Proof.LibSoftmaxRow
import proofs.«105021_j11304353923418_2_alg».proof.Proof.Literals
import Idealize.ShloMosaic.Lib.ValueIdx
import Idealize.ShloMosaic.Lib.ValueLayout

noncomputable section

open scoped BigOperators

namespace Cert.Attn.Kern

open Idealize.ShloMosaic Idealize.ShloMosaic.ValueIdx Cert.KernelIdeal Cert.Attn.Spec Cert.Attn.Literals

variable [Cert.KernelIdeal.Facts]
open Cert.KernelIdeal.Facts₀ Cert.KernelIdeal.Facts

/-- The masked score of query row `r` of the block against key row `j`. -/
def kscore (P0 : FVec Ideal S1x512x64 .f32) (P1 : FVec Ideal S1x2048x64 .bf16) (P3 : IVec S1x512x2048 32)
    (r : Fin 512) (j : Fin 2048) : EReal :=
  Scalar.select (IntOp.cmpi .ne (P3 (ix3 (0 : Fin 1) r j)) 0#32) (⊥ : EReal)
    (∑ d : Fin 64, (P0 (ix3 (0 : Fin 1) r d) * ((1 / 8 : ℝ) : EReal)) * P1 (ix3 (0 : Fin 1) j d))

/-- The block of masked scores as the body computes it. -/
def masked (P0 : FVec Ideal S1x512x64 .f32) (P1 : FVec Ideal S1x2048x64 .bf16) (P3 : IVec S1x512x2048 32) :
    FVec Ideal S512x2048 .f32 :=
  select (cmpi .ne (shapeCast S512x2048 P3 shapeCasts_S1x512x2048_S512x2048) (constantI S512x2048 32 0#32))
    (broadcast S512x2048 (Scalar.ofBits (F := Ideal) .f32 0xFF800000#32))
    (matmul dot_S512x64_S64x2048_S512x2048_1_0_0_1_n_n none
      (truncf .bf16 (mulf (shapeCast S512x64 P0 shapeCasts_S1x512x64_S512x64)
        (broadcast S512x64 (Scalar.ofBits (F := Ideal) .f32 0x3E000000#32))) bitsLt_bf16_f32)
      (transpose S64x2048 [1, 0] (shapeCast S2048x64 P1 shapeCasts_S1x2048x64_S2048x64) transposes_S2048x64_p1_0_S64x2048)
      (constant S512x2048 .f32 0x00000000#32))

/-- Each row's maximum, repeated along the row. -/
def rowMaxB (P0 : FVec Ideal S1x512x64 .f32) (P1 : FVec Ideal S1x2048x64 .bf16) (P3 : IVec S1x512x2048 32) :
    FVec Ideal S512x2048 .f32 :=
  broadcastTo S512x2048 (shapeCast S512x1 (multiReduction .maximumf [1] S512 (masked P0 P1 P3) 0xFF800000#32
    reduces_S512x2048_S512 (.inl rfl) rfl) shapeCasts_S512_S512x1) broadcasts_S512x1_S512x2048

/-- The exponentials of the scores less their row's maximum. -/
def expd (P0 : FVec Ideal S1x512x64 .f32) (P1 : FVec Ideal S1x2048x64 .bf16) (P3 : IVec S1x512x2048 32) :
    FVec Ideal S512x2048 .f32 :=
  exp (subf (masked P0 P1 P3) (rowMaxB P0 P1 P3))

/-- Each row's sum of exponentials, repeated along the row. -/
def rowSumB (P0 : FVec Ideal S1x512x64 .f32) (P1 : FVec Ideal S1x2048x64 .bf16) (P3 : IVec S1x512x2048 32) :
    FVec Ideal S512x2048 .f32 :=
  broadcastTo S512x2048 (shapeCast S512x1 (multiReduction .add [1] S512 (expd P0 P1 P3) 0x00000000#32
    reduces_S512x2048_S512 (.inl rfl) rfl) shapeCasts_S512_S512x1) broadcasts_S512x1_S512x2048

/-- The attention block is the quotient of the exponentials by their row sums. -/
theorem pay2_eq (P0 : FVec Ideal S1x512x64 .f32) (P1 : FVec Ideal S1x2048x64 .bf16) (P3 : IVec S1x512x2048 32) :
    Gen.k0_pay2 (F := Ideal) P0 P1 P3 = divf (expd P0 P1 P3) (rowSumB P0 P1 P3) := rfl

/-- The block of masked scores at (r, j). -/
theorem masked_apply (P0 : FVec Ideal S1x512x64 .f32) (P1 : FVec Ideal S1x2048x64 .bf16) (P3 : IVec S1x512x2048 32)
    (r : Fin 512) (j : Fin 2048) : masked P0 P1 P3 (ix2 r j) = kscore P0 P1 P3 r j := by
  unfold masked kscore
  rw [select_apply]
  have hc : cmpi .ne (shapeCast S512x2048 P3 shapeCasts_S1x512x2048_S512x2048) (constantI S512x2048 32 0#32) (ix2 r j)
      = IntOp.cmpi .ne (P3 (ix3 (0 : Fin 1) r j)) 0#32 := by
    show IntOp.cmpi .ne (shapeCast S512x2048 P3 shapeCasts_S1x512x2048_S512x2048 (ix2 r j))
      (constantI S512x2048 32 0#32 (ix2 r j)) = _
    rw [shapeCast_1ab_ab_apply, constantI_apply]
  rw [hc, broadcast_apply]
  show Scalar.select _ (Ideal.ofBits .f32 0xFF800000#32) _ = _
  rw [ofBits_neg_inf]
  congr 1
  refine (Cert.LibMatmulPlain.matmul_plain_zero_apply none _ _ r j).trans ?_
  refine Finset.sum_congr rfl fun d _ => ?_
  rw [truncf_apply, mulf_apply, shapeCast_1ab_ab_apply, broadcast_apply, transpose_ix2_apply, shapeCast_1ab_ab_apply]
  show P0 (ix3 (0 : Fin 1) r d) * Ideal.ofBits .f32 0x3E000000#32 * P1 (ix3 (0 : Fin 1) j d) = _
  rw [ofBits_eighth]

/-- The repeated row maximum at (r, j) is the fold of max from minus infinity over row r of the masked scores. -/
theorem rowMaxB_apply (P0 : FVec Ideal S1x512x64 .f32) (P1 : FVec Ideal S1x2048x64 .bf16) (P3 : IVec S1x512x2048 32)
    (r : Fin 512) (j : Fin 2048) :
    rowMaxB P0 P1 P3 (ix2 r j) = (Finset.univ : Finset (Fin 2048)).fold max ⊥ (fun j' => kscore P0 P1 P3 r j') := by
  unfold rowMaxB
  rw [Cert.LibRows.column_broadcast_apply]
  refine (Cert.LibRows.lane_max_apply (masked P0 P1 P3) 0xFF800000#32 reduces_S512x2048_S512 (.inl rfl) rfl r).trans ?_
  rw [ofBits_neg_inf]
  simp only [masked_apply]

/-- The exponential at (r, j). -/
theorem expd_apply (P0 : FVec Ideal S1x512x64 .f32) (P1 : FVec Ideal S1x2048x64 .bf16) (P3 : IVec S1x512x2048 32)
    (r : Fin 512) (j : Fin 2048) :
    expd P0 P1 P3 (ix2 r j) = Ideal.exp (kscore P0 P1 P3 r j
      - (Finset.univ : Finset (Fin 2048)).fold max ⊥ (fun j' => kscore P0 P1 P3 r j')) := by
  show FloatOps.exp (subf (masked P0 P1 P3) (rowMaxB P0 P1 P3) (ix2 r j)) = _
  rw [Ideal.exp_def, subf_apply, masked_apply, rowMaxB_apply]

/-- The attention block at (r, j): the softmax of row r of the masked scores, at column j. -/
theorem pay2_apply (P0 : FVec Ideal S1x512x64 .f32) (P1 : FVec Ideal S1x2048x64 .bf16) (P3 : IVec S1x512x2048 32)
    (r : Fin 512) (j : Fin 2048) :
    Gen.k0_pay2 (F := Ideal) P0 P1 P3 (ix2 r j) = rowSoftmax (fun j' => kscore P0 P1 P3 r j') j := by
  rw [pay2_eq, divf_apply, expd_apply]
  unfold rowSumB rowSoftmax
  rw [Cert.LibRows.column_broadcast_apply]
  refine congrArg (Ideal.div _) ?_
  refine (Cert.LibRows.lane_sum_apply (expd P0 P1 P3) 0x00000000#32 reduces_S512x2048_S512 (.inl rfl) rfl r).trans ?_
  simp only [expd_apply]

/-- The returned block at (r, d): the softmax row r against column d of the value rows. -/
theorem pay4_apply (P0 : FVec Ideal S1x512x64 .f32) (P1 P2 : FVec Ideal S1x2048x64 .bf16) (P3 : IVec S1x512x2048 32)
    (r : Fin 512) (d : Fin 64) :
    Gen.k0_pay4 (F := Ideal) P0 P1 P2 P3 (ix2 r d)
      = ∑ j : Fin 2048, Gen.k0_pay2 (F := Ideal) P0 P1 P3 (ix2 r j) * P2 (ix3 (0 : Fin 1) j d) := by
  show matmul dot_S512x2048_S2048x64_S512x64_1_0_0_1_n_n none (truncf .bf16 (Gen.k0_pay2 (F := Ideal) P0 P1 P3) bitsLt_bf16_f32)
    (shapeCast S2048x64 P2 shapeCasts_S1x2048x64_S2048x64) (constant S512x64 .f32 0x00000000#32) (ix2 r d) = _
  refine (Cert.LibMatmulPlain.matmul_plain_zero_apply none _ _ r d).trans ?_
  refine Finset.sum_congr rfl fun j _ => ?_
  rw [truncf_apply, shapeCast_1ab_ab_apply]

end Cert.Attn.Kern

end
-- ==== Proof.RefRow.lean ====
/-
  The reference, entry by entry.

  For batch b, query row i and key row j the reference's scaled score is the inner product of the query row with the
  key row, replaced by minus infinity where the mask bit is set, divided by eight. Its attention matrix at (b, i, j) is
  the softmax of row (b, i) of the scaled scores at column j: the row maximum is a fold of max over the row from minus
  infinity (taken once more against minus infinity, which changes nothing), the denominator is zero plus the sum of
  the row's exponentials. Its output at (b, i, d) is the inner product over j of the attention row with column d of the
  values of batch b.
-/
import proofs.«105021_j11304353923418_2_alg».proof.Proof.Gen.ReferenceIdeal.Read
import proofs.«105021_j11304353923418_2_alg».proof.Proof.LibSoftmaxRow
import proofs.«105021_j11304353923418_2_alg».proof.Proof.Literals
import Idealize.ShloMosaic.PureOps.Reduce

noncomputable section

open scoped BigOperators

namespace Cert.Attn.Ref

open Idealize.ShloMosaic Idealize.ShloMosaic.ValueIdx Cert.ReferenceIdeal Cert.ReferenceIdeal.Read Cert.Attn.Spec
  Cert.Attn.Literals

variable [Cert.ReferenceIdeal.Facts]
open Cert.ReferenceIdeal.Facts₀ Cert.ReferenceIdeal.Facts

/-- The scaled, masked score at (b, i, j). -/
theorem score_apply (q k : FVec Ideal S32x2048x64 .f32) (mask : IVec S32x2048x2048 1) (b : Fin 32) (i j : Fin 2048) :
    val_main_v3 (F := Ideal) q k mask (ix3 b i j)
      = Ideal.div (Scalar.select (mask (ix3 b i j)) (⊥ : EReal) (∑ d : Fin 64, q (ix3 b i d) * k (ix3 b j d)))
          ((8 : ℝ) : EReal) := by
  have el : ∀ d : Fin 64, lidx_main_v0 (ix3 b i j) d = ix3 b i d := fun d => funext fun a => Fin.ext (by
    match a with | ⟨0, _⟩ => rfl | ⟨1, _⟩ => rfl | ⟨2, _⟩ => rfl)
  have er : ∀ d : Fin 64, ridx_main_v0 (ix3 b i j) d = ix3 b j d := fun d => funext fun a => Fin.ext (by
    match a with | ⟨0, _⟩ => rfl | ⟨1, _⟩ => rfl | ⟨2, _⟩ => rfl)
  rw [val_main_v3_apply, val_main_v1_apply, val_main_call0_v1_apply, val_main_call0_v0_apply, val_main_cst_apply,
    val_main_v0_apply, val_main_v2_apply, val_main_cst_0_apply]
  simp only [el, er, Ideal.hostDivf_def, Ideal.ofBits_def, ofBits_neg_inf, ofBits_eight]

/-- Row (b, i) of the reduced index with column j put back is (b, i, j). -/
theorem lift_row (h : S32x2048x2048.Reduces [2] S32x2048) (b : Fin 32) (i : Fin 2048) (j : Fin (S32x2048x2048.size 2)) :
    h.lift (ix2 b i) j = ix3 b i (⟨j.val, j.isLt⟩ : Fin 2048) := by
  funext ax
  match ax with
  | ⟨0, _⟩ => exact Fin.ext rfl
  | ⟨1, _⟩ => exact Fin.ext rfl
  | ⟨2, _⟩ => exact Fin.ext rfl

/-- The row maximum at (b, i): the fold of max from minus infinity over the row of scaled scores. -/
theorem rowmax_apply (q k : FVec Ideal S32x2048x64 .f32) (mask : IVec S32x2048x2048 1) (b : Fin 32) (i : Fin 2048) :
    val_main_v4 (F := Ideal) q k mask (ix2 b i)
      = (Finset.univ : Finset (Fin 2048)).fold max ⊥ (fun j => val_main_v3 (F := Ideal) q k mask (ix3 b i j)) := by
  have h : S32x2048x2048.Reduces [2] S32x2048 := by decide
  unfold val_main_v4
  rw [Host.reduce_eq_fold_single FloatOps.maximumf _ _ reducesTo_S32x2048x2048_S32x2048_d2 h h_S_]
  have hinit : val_main_cst_1 (F := Ideal) (Shape.Idx.first h_S_) = (⊥ : EReal) := by
    rw [val_main_cst_1_apply, Ideal.ofBits_def, ofBits_neg_inf]
  rw [hinit]
  exact congrArg (fun f => (Finset.univ : Finset (Fin 2048)).fold max (⊥ : EReal) f)
    (funext fun j => congrArg (val_main_v3 (F := Ideal) q k mask) (lift_row h b i j))

/-- The attention matrix at (b, i, j): the softmax of row (b, i) of the scaled scores, at column j. -/
theorem attn_apply (q k : FVec Ideal S32x2048x64 .f32) (mask : IVec S32x2048x2048 1) (b : Fin 32) (i j : Fin 2048) :
    val_main_v14 (F := Ideal) q k mask (ix3 b i j)
      = rowSoftmax (fun j' => val_main_v3 (F := Ideal) q k mask (ix3 b i j')) j := by
  have e8 : idx_main_v7 (idx_main_v8 (ix3 b i j)) = ix2 b i := funext fun a => Fin.ext (by
    match a with | ⟨0, _⟩ => rfl | ⟨1, _⟩ => rfl)
  have e13 : idx_main_v12 (idx_main_v13 (ix3 b i j)) = ix2 b i := funext fun a => Fin.ext (by
    match a with | ⟨0, _⟩ => rfl | ⟨1, _⟩ => rfl)
  have e11 : ∀ j' : Fin 2048, idx_main_v11 (ix2 b i) j' = ix3 b i j' := fun j' => funext fun a => Fin.ext (by
    match a with | ⟨0, _⟩ => rfl | ⟨1, _⟩ => rfl | ⟨2, _⟩ => rfl)
  have hmax : val_main_v8 (F := Ideal) q k mask (ix3 b i j)
      = (Finset.univ : Finset (Fin 2048)).fold max ⊥ (fun j' => val_main_v3 (F := Ideal) q k mask (ix3 b i j')) := by
    rw [val_main_v8_apply, val_main_v7_apply, e8, val_main_v6_apply, val_main_v5_apply, val_main_cst_2_apply,
      rowmax_apply, Ideal.maximumf_def, Ideal.ofBits_def, ofBits_neg_inf]
    exact max_eq_right bot_le
  have hrow : ∀ i' : S32x2048x2048.Idx, val_main_v8 (F := Ideal) q k mask i'
      = val_main_v6 (F := Ideal) q k mask (idx_main_v7 (idx_main_v8 i')) := fun i' => by
    rw [val_main_v8_apply, val_main_v7_apply]
  have hmax' : ∀ j' : Fin 2048, val_main_v8 (F := Ideal) q k mask (ix3 b i j') = val_main_v8 (F := Ideal) q k mask (ix3 b i j) := by
    intro j'
    rw [hrow, hrow]
  have hexp : ∀ j' : Fin 2048, val_main_v10 (F := Ideal) q k mask (ix3 b i j')
      = Ideal.exp (val_main_v3 (F := Ideal) q k mask (ix3 b i j')
          - (Finset.univ : Finset (Fin 2048)).fold max ⊥ (fun j'' => val_main_v3 (F := Ideal) q k mask (ix3 b i j''))) := by
    intro j'
    rw [val_main_v10_apply, val_main_v9_apply, hmax' j', hmax, Ideal.hostUnary_exp_def, Ideal.subf_def]
  unfold rowSoftmax
  rw [val_main_v14_apply, val_main_v13_apply, val_main_v12_apply, e13, val_main_v11_apply, val_main_cst_3_apply,
    Ideal.hostDivf_def, Ideal.ofBits_def, Ideal.ofBits_zero_f32, zero_add, hexp j]
  simp only [e11, hexp]

/-- The output at (b, i, d): the attention row (b, i) against column d of the values of batch b. -/
theorem out_apply (q k v : FVec Ideal S32x2048x64 .f32) (mask : IVec S32x2048x2048 1) (b : Fin 32) (i : Fin 2048)
    (d : Fin 64) :
    val_main_v15 (F := Ideal) q k v mask (ix3 b i d)
      = ∑ j : Fin 2048, val_main_v14 (F := Ideal) q k mask (ix3 b i j) * v (ix3 b j d) := by
  have el : ∀ j : Fin 2048, lidx_main_v15 (ix3 b i d) j = ix3 b i j := fun j => funext fun a => Fin.ext (by
    match a with | ⟨0, _⟩ => rfl | ⟨1, _⟩ => rfl | ⟨2, _⟩ => rfl)
  have er : ∀ j : Fin 2048, ridx_main_v15 (ix3 b i d) j = ix3 b j d := fun j => funext fun a => Fin.ext (by
    match a with | ⟨0, _⟩ => rfl | ⟨1, _⟩ => rfl | ⟨2, _⟩ => rfl)
  rw [val_main_v15_apply]
  simp only [el, er]

end Cert.Attn.Ref

end
-- ==== Proof.Bridge.lean ====
/-
  One grid point's blocks against the whole arrays.

  The grid point (b, qi) works on batch b and on the 512 query rows qi * 512 + r. Its query block holds those rows of
  the queries, its key and value blocks hold all 2048 rows of the keys and the values of batch b, and its mask block
  holds the widened mask bits of those query rows. Stated over arbitrary blocks that satisfy these three readings:

  * the masked score the body forms at (r, j) is the reference's scaled score at (b, qi * 512 + r, j): the mask
    word is not zero exactly when the mask bit is set, and for real queries and keys scaling the query row by one
    eighth is dividing the inner product by eight;
  * hence the attention entry the body stores at (r, j) is the reference's attention at (b, qi * 512 + r, j): both are
    the softmax of one and the same row;
  * hence the entry the body returns at (r, d) is the reference's output at (b, qi * 512 + r, d): both are the inner
    product of that attention row with column d of the values of batch b.
-/
import proofs.«105021_j11304353923418_2_alg».proof.Proof.KernelRow
import proofs.«105021_j11304353923418_2_alg».proof.Proof.RefRow
import Idealize.ShloMosaic.Lib.ValueLayout

noncomputable section

open scoped BigOperators

namespace Cert.Attn.Bridge

open Idealize.ShloMosaic Idealize.ShloMosaic.ValueIdx Cert.Attn.Spec

variable [Cert.KernelIdeal.Facts] [Cert.ReferenceIdeal.Facts]

/-- Row `r` of query tile `qi` is row `qi * 512 + r` of the batch. -/
def rowOf (qi : Fin 4) (r : Fin 512) : Fin 2048 :=
  ⟨qi.val * 512 + r.val, by have := qi.isLt; have := r.isLt; omega⟩

section
variable (Q K : FVec Ideal Cert.ReferenceIdeal.S32x2048x64 .f32) (Mk : IVec Cert.ReferenceIdeal.S32x2048x2048 1)
  (hq : ∀ i, ∃ x : ℝ, Q i = (x : EReal)) (hk : ∀ i, ∃ x : ℝ, K i = (x : EReal))
  (P0 : FVec Ideal Cert.KernelIdeal.S1x512x64 .f32) (P1 : FVec Ideal Cert.KernelIdeal.S1x2048x64 .bf16)
  (P3 : IVec Cert.KernelIdeal.S1x512x2048 32) (b : Fin 32) (qi : Fin 4)
  (h0 : ∀ (r : Fin 512) (d : Fin 64), P0 (ix3 (0 : Fin 1) r d) = Q (ix3 b (rowOf qi r) d))
  (h1 : ∀ (j : Fin 2048) (d : Fin 64), P1 (ix3 (0 : Fin 1) j d) = K (ix3 b j d))
  (h3 : ∀ (r : Fin 512) (j : Fin 2048), P3 (ix3 (0 : Fin 1) r j) = (Mk (ix3 b (rowOf qi r) j)).setWidth 32)

include hq hk h0 h1 h3

/-- The body's masked score is the reference's scaled score. -/
theorem score_block (r : Fin 512) (j : Fin 2048) :
    Cert.Attn.Kern.kscore P0 P1 P3 r j
      = Cert.ReferenceIdeal.Read.val_main_v3 (F := Ideal) Q K Mk (ix3 b (rowOf qi r) j) := by
  rw [Cert.Attn.Ref.score_apply]
  unfold Cert.Attn.Kern.kscore
  rw [h3, widened_ne_zero]
  choose a ha using hq
  choose e he using hk
  simp only [h0, h1, ha, he]
  exact masked_score (Mk (ix3 b (rowOf qi r) j)) (fun d => a (ix3 b (rowOf qi r) d)) (fun d => e (ix3 b j d))

/-- The attention entry the body stores is the reference's. -/
theorem attn_block (r : Fin 512) (j : Fin 2048) :
    Cert.KernelIdeal.Gen.k0_pay2 (F := Ideal) P0 P1 P3 (ix2 r j)
      = Cert.ReferenceIdeal.Read.val_main_v14 (F := Ideal) Q K Mk (ix3 b (rowOf qi r) j) := by
  rw [Cert.Attn.Kern.pay2_apply, Cert.Attn.Ref.attn_apply]
  exact congrArg (fun f => rowSoftmax f j)
    (funext fun j' => score_block Q K Mk hq hk P0 P1 P3 b qi h0 h1 h3 r j')

/-- The output entry the body returns is the reference's. -/
theorem out_block (Vv : FVec Ideal Cert.ReferenceIdeal.S32x2048x64 .f32) (P2 : FVec Ideal Cert.KernelIdeal.S1x2048x64 .bf16)
    (h2 : ∀ (j : Fin 2048) (d : Fin 64), P2 (ix3 (0 : Fin 1) j d) = Vv (ix3 b j d)) (r : Fin 512) (d : Fin 64) :
    Cert.KernelIdeal.Gen.k0_pay4 (F := Ideal) P0 P1 P2 P3 (ix2 r d)
      = Cert.ReferenceIdeal.Read.val_main_v15 (F := Ideal) Q K Vv Mk (ix3 b (rowOf qi r) d) := by
  rw [Cert.Attn.Kern.pay4_apply, Cert.Attn.Ref.out_apply]
  refine Finset.sum_congr rfl fun j _ => ?_
  rw [attn_block Q K Mk hq hk P0 P1 P3 b qi h0 h1 h3 r j, h2]

/-- What the body stores to the attention block at block index `y` is the reference's attention at any array index
    with batch `b`, row `qi * 512 + y 1` and column `y 2`. -/
theorem attn_point (y : Cert.KernelIdeal.S1x512x2048.Idx) (i : Cert.ReferenceIdeal.S32x2048x2048.Idx)
    (hi0 : (i 0).val = b.val) (hi1 : (i 1).val = qi.val * 512 + (y 1).val) (hi2 : (i 2).val = (y 2).val) :
    Cert.KernelIdeal.Gen.k0_pay3 (F := Ideal) P0 P1 P3 y
      = Cert.ReferenceIdeal.Read.val_main_v14 (F := Ideal) Q K Mk i := by
  obtain ⟨u, r, j, rfl⟩ : ∃ (u : Fin 1) (r : Fin 512) (j : Fin 2048), y = ix3 u r j := ⟨y 0, y 1, y 2, eq_ix3 y⟩
  have hi : i = ix3 b (rowOf qi r) j := by
    funext a; apply Fin.ext
    match a with
    | ⟨0, _⟩ => exact hi0
    | ⟨1, _⟩ => exact hi1
    | ⟨2, _⟩ => exact hi2
  rw [hi]
  show shapeCast Cert.KernelIdeal.S1x512x2048 (Cert.KernelIdeal.Gen.k0_pay2 (F := Ideal) P0 P1 P3) _ (ix3 u r j) = _
  rw [shapeCast_ab_1ab_apply]
  exact attn_block Q K Mk hq hk P0 P1 P3 b qi h0 h1 h3 r j

/-- What the body stores to the output block at block index `y` is the reference's output at any array index with
    batch `b`, row `qi * 512 + y 1` and column `y 2`. -/
theorem out_point (Vv : FVec Ideal Cert.ReferenceIdeal.S32x2048x64 .f32) (P2 : FVec Ideal Cert.KernelIdeal.S1x2048x64 .bf16)
    (h2 : ∀ (j : Fin 2048) (d : Fin 64), P2 (ix3 (0 : Fin 1) j d) = Vv (ix3 b j d))
    (y : Cert.KernelIdeal.S1x512x64.Idx) (i : Cert.ReferenceIdeal.S32x2048x64.Idx)
    (hi0 : (i 0).val = b.val) (hi1 : (i 1).val = qi.val * 512 + (y 1).val) (hi2 : (i 2).val = (y 2).val) :
    Cert.KernelIdeal.Gen.k0_pay1 (F := Ideal) (Cert.KernelIdeal.Gen.k0_pay4 (F := Ideal) P0 P1 P2 P3) y
      = Cert.ReferenceIdeal.Read.val_main_v15 (F := Ideal) Q K Vv Mk i := by
  obtain ⟨u, r, d, rfl⟩ : ∃ (u : Fin 1) (r : Fin 512) (d : Fin 64), y = ix3 u r d := ⟨y 0, y 1, y 2, eq_ix3 y⟩
  have hi : i = ix3 b (rowOf qi r) d := by
    funext a; apply Fin.ext
    match a with
    | ⟨0, _⟩ => exact hi0
    | ⟨1, _⟩ => exact hi1
    | ⟨2, _⟩ => exact hi2
  rw [hi]
  show shapeCast Cert.KernelIdeal.S1x512x64 (Cert.KernelIdeal.Gen.k0_pay4 (F := Ideal) P0 P1 P2 P3) _ (ix3 u r d) = _
  rw [shapeCast_ab_1ab_apply]
  exact out_block Q K Mk hq hk P0 P1 P3 b qi h0 h1 h3 Vv P2 h2 r d

end

end Cert.Attn.Bridge

end
-- ==== Proof.HostPrep.lean ====
/-
  What the region finds in the arrays the host writes before it.

  Before the kernel is launched the host changes the format of the keys and of the values and widens each mask bit
  to a 32-bit word. On extended reals a change of format is the identity, so the region finds the keys and the values
  themselves; the mask word at an index is the mask bit there, widened.
-/
import proofs.«105021_j11304353923418_2_alg».proof.Proof.Gen.KernelIdeal.Frame
import Idealize.ShloMosaic.Lib.StableHlo.Run
import Idealize.ShloMosaic.Lib.ValueIdx

noncomputable section

namespace Cert.Attn.Prep

open Cert.KernelIdeal Cert.KernelIdeal.Gen Idealize.ShloMosaic Idealize.ShloMosaic.TcCoe Idealize.SL.Sem
  Idealize.ShloMosaic.StableHlo

variable [Cert.KernelIdeal.Facts]
variable (m : (ℓ : Loc nD τ sig) → Buf (Elt Ideal) ℓ)

/-- The region finds the keys as launched. -/
theorem V_keys (c : Dev nD) :
    (V m c main_v0 : S32x2048x64.Idx → EReal) = m ((c : Thread nD τ).loc main_arg1) := by
  have e : (V m c main_v0 : S32x2048x64.Idx → EReal)
      = (truncf (F := Ideal) (s := S32x2048x64) (φ := .f32) .bf16 (m ((c : Thread nD τ).loc main_arg1)) bitsLt_bf16_f32
          : S32x2048x64.Idx → EReal) := by
    dsimp only [Gen.V, Gen.hostOps0]; after_results
  rw [e]; rfl

/-- The region finds the values as launched. -/
theorem V_values (c : Dev nD) :
    (V m c main_v1 : S32x2048x64.Idx → EReal) = m ((c : Thread nD τ).loc main_arg2) := by
  have e : (V m c main_v1 : S32x2048x64.Idx → EReal)
      = (truncf (F := Ideal) (s := S32x2048x64) (φ := .f32) .bf16 (m ((c : Thread nD τ).loc main_arg2)) bitsLt_bf16_f32
          : S32x2048x64.Idx → EReal) := by
    dsimp only [Gen.V, Gen.hostOps0]; after_results
  rw [e]; rfl

/-- The region finds, at each index, the mask bit widened to a word. -/
theorem V_mask (c : Dev nD) (i : S32x2048x2048.Idx) :
    (V m c main_v2 : S32x2048x2048.Idx → BitVec 32) i
      = ((m ((c : Thread nD τ).loc main_arg3) : S32x2048x2048.Idx → BitVec 1) i).setWidth 32 := by
  have e : (V m c main_v2 : S32x2048x2048.Idx → BitVec 32)
      = extui 32 (m ((c : Thread nD τ).loc main_arg3) : S32x2048x2048.Idx → BitVec 1) natLt_1_32 := by
    dsimp only [Gen.V, Gen.hostOps0]; after_results
  rw [e]; rfl

end Cert.Attn.Prep

end
-- ==== Proof.Blocks.lean ====
/-
  From the blocks to the two result arrays.

  The grid has 32 x 4 points; point (b, qi) reads block (b, qi, 0) of the queries and of the widened mask, block
  (b, 0, 0) of the keys and of the values, and writes back block (b, qi, 0) of the output and of the attention matrix.
  These relations between the printed index maps are decided once over the 128 points. A block's coordinate along an
  axis is always the block index times the block's extent plus the coordinate inside the block, so each input block,
  read at its coordinates, is the array as the region finds it at batch b, row qi * 512 + r: the queries as
  launched, the keys and the values as launched (the host's change of format is the identity), the mask bit widened.
  Hence what point t writes back is block t of the reference's two results, the blocks (b, qi, 0) cover both arrays
  (an index (b, i, c) lies in the block of the point with qi = i / 512), and both arrays end holding the reference's
  results.
-/
import proofs.«105021_j11304353923418_2_alg».proof.Proof.Gen.KernelIdeal.Value
import proofs.«105021_j11304353923418_2_alg».proof.Proof.Bridge
import proofs.«105021_j11304353923418_2_alg».proof.Proof.HostPrep
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.Attn.Blocks

open Cert.KernelIdeal Cert.KernelIdeal.Gen Cert.KernelIdeal.Value

variable [Cert.KernelIdeal.Facts] [Cert.ReferenceIdeal.Facts]
variable (m : (ℓ : Loc nD τ sig) → Buf (Elt Ideal) ℓ) (ρ : Dev nD → PrngReg)

theorem zeros3 : (![0, 0, 0] : Fin 3 → Nat) = fun _ => 0 := funext fun a => by fin_cases a <;> rfl

/-- The printed index maps over the grid: the block indices of the two outputs, and each input's against them. -/
theorem idx_facts : ∀ t : Fin cfg0.N,
    win0_5.index t (0 : Fin 3) < 32 ∧ win0_5.index t (1 : Fin 3) < 4 ∧ win0_5.index t (2 : Fin 3) = 0
    ∧ win0_4.index t (0 : Fin 3) = win0_5.index t (0 : Fin 3) ∧ win0_4.index t (1 : Fin 3) = win0_5.index t (1 : Fin 3)
    ∧ win0_4.index t (2 : Fin 3) = 0
    ∧ win0_0.index t (0 : Fin 3) = win0_5.index t (0 : Fin 3) ∧ win0_0.index t (1 : Fin 3) = win0_5.index t (1 : Fin 3)
    ∧ win0_0.index t (2 : Fin 3) = 0
    ∧ win0_1.index t (0 : Fin 3) = win0_5.index t (0 : Fin 3) ∧ win0_1.index t (1 : Fin 3) = 0
    ∧ win0_1.index t (2 : Fin 3) = 0
    ∧ win0_2.index t (0 : Fin 3) = win0_5.index t (0 : Fin 3) ∧ win0_2.index t (1 : Fin 3) = 0
    ∧ win0_2.index t (2 : Fin 3) = 0
    ∧ win0_3.index t (0 : Fin 3) = win0_5.index t (0 : Fin 3) ∧ win0_3.index t (1 : Fin 3) = win0_5.index t (1 : Fin 3)
    ∧ win0_3.index t (2 : Fin 3) = 0 :=
  (by decide +kernel : ∀ t : Fin grid0.N, _)

/-- Every (batch, query tile) is some point's. -/
theorem idx_onto : ∀ (q0 : Fin 32) (q1 : Fin 4), ∃ t : Fin cfg0.N,
    win0_5.index t (0 : Fin 3) = q0.val ∧ win0_5.index t (1 : Fin 3) = q1.val :=
  (by decide +kernel : ∀ (q0 : Fin 32) (q1 : Fin 4), ∃ t : Fin grid0.N,
    win0_5.index t (0 : Fin 3) = q0.val ∧ win0_5.index t (1 : Fin 3) = q1.val)

/-! ## Each input block, read at its coordinates -/

/-- The query block holds rows qi * 512 + r of the queries of batch b. -/
theorem query_block (c : Dev nD) (t : Fin cfg0.N) (b : Fin 32) (qi : Fin 4)
    (e0 : win0_0.index t (0 : Fin 3) = b.val) (e1 : win0_0.index t (1 : Fin 3) = qi.val)
    (e2 : win0_0.index t (2 : Fin 3) = 0) (r : Fin 512) (d : Fin 64) :
    (iblk m c 0 t : FVec Ideal S1x512x64 .f32) (ix3 (0 : Fin 1) r d)
      = (m ((c : Thread nD τ).loc main_arg0) : S32x2048x64.Idx → EReal) (ix3 b (Cert.Attn.Bridge.rowOf qi r) d) := by
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = b.val; omega
  | ⟨1, _⟩ => show win0_0.index t 1 * 512 + 1 * r.val = qi.val * 512 + r.val; omega
  | ⟨2, _⟩ => show win0_0.index t 2 * 64 + 1 * d.val = d.val; omega

/-- The key block holds the keys of batch b. -/
theorem key_block (c : Dev nD) (t : Fin cfg0.N) (b : Fin 32)
    (e0 : win0_1.index t (0 : Fin 3) = b.val) (e1 : win0_1.index t (1 : Fin 3) = 0)
    (e2 : win0_1.index t (2 : Fin 3) = 0) (j : Fin 2048) (d : Fin 64) :
    (iblk m c 1 t : FVec Ideal S1x2048x64 .bf16) (ix3 (0 : Fin 1) j d)
      = (m ((c : Thread nD τ).loc main_arg1) : S32x2048x64.Idx → EReal) (ix3 b j d) := by
  unfold iblk
  rw [View.read_apply]
  show V m c main_v0 _ = m (c.tc.loc main_arg1) _
  rw [Cert.Attn.Prep.V_keys]
  congr 1
  funext a
  apply Fin.ext
  match a with
  | ⟨0, _⟩ => show win0_1.index t 0 * 1 + 1 * 0 = b.val; omega
  | ⟨1, _⟩ => show win0_1.index t 1 * 2048 + 1 * j.val = j.val; omega
  | ⟨2, _⟩ => show win0_1.index t 2 * 64 + 1 * d.val = d.val; omega

/-- The value block holds the values of batch b. -/
theorem value_block (c : Dev nD) (t : Fin cfg0.N) (b : Fin 32)
    (e0 : win0_2.index t (0 : Fin 3) = b.val) (e1 : win0_2.index t (1 : Fin 3) = 0)
    (e2 : win0_2.index t (2 : Fin 3) = 0) (j : Fin 2048) (d : Fin 64) :
    (iblk m c 2 t : FVec Ideal S1x2048x64 .bf16) (ix3 (0 : Fin 1) j d)
      = (m ((c : Thread nD τ).loc main_arg2) : S32x2048x64.Idx → EReal) (ix3 b j d) := by
  unfold iblk
  rw [View.read_apply]
  show V m c main_v1 _ = m (c.tc.loc main_arg2) _
  rw [Cert.Attn.Prep.V_values]
  congr 1
  funext a
  apply Fin.ext
  match a with
  | ⟨0, _⟩ => show win0_2.index t 0 * 1 + 1 * 0 = b.val; omega
  | ⟨1, _⟩ => show win0_2.index t 1 * 2048 + 1 * j.val = j.val; omega
  | ⟨2, _⟩ => show win0_2.index t 2 * 64 + 1 * d.val = d.val; omega

/-- The mask block holds the widened mask bits of rows qi * 512 + r of batch b. -/
theorem mask_block (c : Dev nD) (t : Fin cfg0.N) (b : Fin 32) (qi : Fin 4)
    (e0 : win0_3.index t (0 : Fin 3) = b.val) (e1 : win0_3.index t (1 : Fin 3) = qi.val)
    (e2 : win0_3.index t (2 : Fin 3) = 0) (r : Fin 512) (j : Fin 2048) :
    (iblk m c 3 t : IVec S1x512x2048 32) (ix3 (0 : Fin 1) r j)
      = ((m ((c : Thread nD τ).loc main_arg3) : S32x2048x2048.Idx → BitVec 1)
          (ix3 b (Cert.Attn.Bridge.rowOf qi r) j)).setWidth 32 := by
  unfold iblk
  rw [View.read_apply]
  show V m c main_v2 _ = _
  rw [Cert.Attn.Prep.V_mask]
  refine congrArg (fun i => BitVec.setWidth 32 ((m (c.tc.loc main_arg3) : S32x2048x2048.Idx → BitVec 1) i)) ?_
  funext a
  apply Fin.ext
  match a with
  | ⟨0, _⟩ => show win0_3.index t 0 * 1 + 1 * 0 = b.val; omega
  | ⟨1, _⟩ => show win0_3.index t 1 * 512 + 1 * r.val = qi.val * 512 + r.val; omega
  | ⟨2, _⟩ => show win0_3.index t 2 * 2048 + 1 * j.val = j.val; omega

/-! ## Membership in a point's block -/

/-- An index of the attention matrix is in point t's block iff each coordinate is in the block's range. -/
theorem mem_attn_blk (t : Fin cfg0.N) (i : S32x2048x2048.Idx) :
    i ∈ ((cfg0.win 5).blk t).view.set ↔ ∀ a : Fin 3, win0_5.index t a * S1x512x2048.size a ≤ (i a).val
      ∧ (i a).val < win0_5.index t a * S1x512x2048.size a + S1x512x2048.size a := by
  show i ∈ ((View.whole main_v3_1).slice (win0_5.rect t)).set ↔ _
  rw [View.set_slice_whole, Rect.mem_set_unit]
  exact Iff.rfl

/-- An index of the output is in point t's block iff each coordinate is in the block's range. -/
theorem mem_out_blk (t : Fin cfg0.N) (i : S32x2048x64.Idx) :
    i ∈ ((cfg0.win 4).blk t).view.set ↔ ∀ a : Fin 3, win0_4.index t a * S1x512x64.size a ≤ (i a).val
      ∧ (i a).val < win0_4.index t a * S1x512x64.size a + S1x512x64.size a := by
  show i ∈ ((View.whole main_v3_0).slice (win0_4.rect t)).set ↔ _
  rw [View.set_slice_whole, Rect.mem_set_unit]
  exact Iff.rfl

/-! ## What each point writes back -/

section
variable (hq : ∀ (c : Dev nD) i, ∃ x : ℝ, (m ((c : Thread nD τ).loc main_arg0) : S32x2048x64.Idx → EReal) i = (x : EReal))
  (hk : ∀ (c : Dev nD) i, ∃ x : ℝ, (m ((c : Thread nD τ).loc main_arg1) : S32x2048x64.Idx → EReal) i = (x : EReal))
include hq hk

/-- Point t writes back block t of the reference's attention matrix. -/
theorem flushed_attn (c : Dev nD) (t : Fin cfg0.N) :
    (dats m 0 c).flushed 5 t = ((cfg0.win 5).blk t).view.read (Elt Ideal)
      (Cert.ReferenceIdeal.Read.val_main_v14 (F := Ideal) (m ((c : Thread nD τ).loc main_arg0))
        (m ((c : Thread nD τ).loc main_arg1)) (m ((c : Thread nD τ).loc main_arg3))) := by
  rw [flushed5]
  unfold out0_5
  rw [View.canon_unit_zero zeros3]
  simp only [View.ld_unit_zero (S := S1x512x64) zeros3, View.ld_unit_zero (S := S1x2048x64) zeros3,
    View.ld_unit_zero (S := S1x512x2048) zeros3]
  obtain ⟨f0, f1, f2, f3, f4, f5, f6, f7, f8, f9, f10, f11, f12, f13, f14, f15, f16, f17⟩ := idx_facts t
  funext y
  have hy0 : (y 0).val < 1 := (y 0).isLt
  refine Cert.Attn.Bridge.attn_point (m ((c : Thread nD τ).loc main_arg0)) (m ((c : Thread nD τ).loc main_arg1))
    (m ((c : Thread nD τ).loc main_arg3)) (hq c) (hk c) (iblk m c 0 t) (iblk m c 1 t) (iblk m c 3 t)
    ⟨win0_5.index t (0 : Fin 3), f0⟩ ⟨win0_5.index t (1 : Fin 3), f1⟩
    (fun r d => query_block m c t _ _ f6 f7 f8 r d) (fun j d => key_block m c t _ f9 f10 f11 j d)
    (fun r j => mask_block m c t _ _ f15 f16 f17 r j) y (((cfg0.win 5).blk t).view.emb y) ?_ ?_ ?_
  · show win0_5.index t 0 * 1 + 1 * (y 0).val = win0_5.index t 0; omega
  · show win0_5.index t 1 * 512 + 1 * (y 1).val = win0_5.index t 1 * 512 + (y 1).val; omega
  · show win0_5.index t 2 * 2048 + 1 * (y 2).val = (y 2).val; omega

/-- Point t writes back block t of the reference's output. -/
theorem flushed_out (c : Dev nD) (t : Fin cfg0.N) :
    (dats m 0 c).flushed 4 t = ((cfg0.win 4).blk t).view.read (Elt Ideal)
      (Cert.ReferenceIdeal.Read.val_main_v15 (F := Ideal) (m ((c : Thread nD τ).loc main_arg0))
        (m ((c : Thread nD τ).loc main_arg1)) (m ((c : Thread nD τ).loc main_arg2)) (m ((c : Thread nD τ).loc main_arg3))) := by
  rw [flushed4]
  unfold out0_4
  rw [View.canon_unit_zero zeros3]
  simp only [View.ld_unit_zero (S := S1x512x64) zeros3, View.ld_unit_zero (S := S1x2048x64) zeros3,
    View.ld_unit_zero (S := S1x512x2048) zeros3]
  obtain ⟨f0, f1, f2, f3, f4, f5, f6, f7, f8, f9, f10, f11, f12, f13, f14, f15, f16, f17⟩ := idx_facts t
  funext y
  have hy0 : (y 0).val < 1 := (y 0).isLt
  refine Cert.Attn.Bridge.out_point (m ((c : Thread nD τ).loc main_arg0)) (m ((c : Thread nD τ).loc main_arg1))
    (m ((c : Thread nD τ).loc main_arg3)) (hq c) (hk c) (iblk m c 0 t) (iblk m c 1 t) (iblk m c 3 t)
    ⟨win0_5.index t (0 : Fin 3), f0⟩ ⟨win0_5.index t (1 : Fin 3), f1⟩
    (fun r d => query_block m c t _ _ f6 f7 f8 r d) (fun j d => key_block m c t _ f9 f10 f11 j d)
    (fun r j => mask_block m c t _ _ f15 f16 f17 r j) (m ((c : Thread nD τ).loc main_arg2)) (iblk m c 2 t)
    (fun j d => value_block m c t _ f12 f13 f14 j d) y (((cfg0.win 4).blk t).view.emb y) ?_ ?_ ?_
  · show win0_4.index t 0 * 1 + 1 * (y 0).val = win0_5.index t 0; omega
  · show win0_4.index t 1 * 512 + 1 * (y 1).val = win0_5.index t 1 * 512 + (y 1).val; omega
  · show win0_4.index t 2 * 64 + 1 * (y 2).val = (y 2).val; omega

/-! ## The cover, and the two arrays after the run -/

/-- The attention matrix after the run is the reference's. -/
theorem final_attn (c : Dev nD) :
    (dats m 0 c).arrAt 5 cfg0.N = Cert.ReferenceIdeal.Read.val_main_v14 (F := Ideal) (m ((c : Thread nD τ).loc main_arg0))
      (m ((c : Thread nD τ).loc main_arg1)) (m ((c : Thread nD τ).loc main_arg3)) := by
  refine (dats m 0 c).arrAt_eq_of_cover 5 _ (fun t _ => flushed_attn m hq hk c t) fun i => ?_
  have hi0 : (i 0).val < 32 := (i 0).isLt
  have hi1 : (i 1).val < 2048 := (i 1).isLt
  have hi2 : (i 2).val < 2048 := (i 2).isLt
  obtain ⟨t, ht0, ht1⟩ := idx_onto ⟨(i 0).val, hi0⟩ ⟨(i 1).val / 512, by omega⟩
  obtain ⟨f0, f1, f2, -⟩ := idx_facts t
  refine ⟨t, flush0_5 t, (mem_attn_blk t i).mpr ?_⟩
  intro a
  match a with
  | ⟨0, _⟩ => show win0_5.index t 0 * 1 ≤ (i 0).val ∧ (i 0).val < win0_5.index t 0 * 1 + 1
              have h0 : win0_5.index t 0 = (i 0).val := ht0
              omega
  | ⟨1, _⟩ => show win0_5.index t 1 * 512 ≤ (i 1).val ∧ (i 1).val < win0_5.index t 1 * 512 + 512
              have h1 : win0_5.index t 1 = (i 1).val / 512 := ht1
              omega
  | ⟨2, _⟩ => show win0_5.index t 2 * 2048 ≤ (i 2).val ∧ (i 2).val < win0_5.index t 2 * 2048 + 2048
              have h2 : win0_5.index t 2 = 0 := f2
              omega

/-- The output after the run is the reference's. -/
theorem final_out (c : Dev nD) :
    (dats m 0 c).arrAt 4 cfg0.N = Cert.ReferenceIdeal.Read.val_main_v15 (F := Ideal) (m ((c : Thread nD τ).loc main_arg0))
      (m ((c : Thread nD τ).loc main_arg1)) (m ((c : Thread nD τ).loc main_arg2)) (m ((c : Thread nD τ).loc main_arg3)) := by
  refine (dats m 0 c).arrAt_eq_of_cover 4 _ (fun t _ => flushed_out m hq hk c t) fun i => ?_
  have hi0 : (i 0).val < 32 := (i 0).isLt
  have hi1 : (i 1).val < 2048 := (i 1).isLt
  have hi2 : (i 2).val < 64 := (i 2).isLt
  obtain ⟨t, ht0, ht1⟩ := idx_onto ⟨(i 0).val, hi0⟩ ⟨(i 1).val / 512, by omega⟩
  obtain ⟨f0, f1, f2, f3, f4, f5, -⟩ := idx_facts t
  refine ⟨t, flush0_4 t, (mem_out_blk t i).mpr ?_⟩
  intro a
  match a with
  | ⟨0, _⟩ => show win0_4.index t 0 * 1 ≤ (i 0).val ∧ (i 0).val < win0_4.index t 0 * 1 + 1
              have h0 : win0_5.index t 0 = (i 0).val := ht0
              omega
  | ⟨1, _⟩ => show win0_4.index t 1 * 512 ≤ (i 1).val ∧ (i 1).val < win0_4.index t 1 * 512 + 512
              have h1 : win0_5.index t 1 = (i 1).val / 512 := ht1
              omega
  | ⟨2, _⟩ => show win0_4.index t 2 * 64 ≤ (i 2).val ∧ (i 2).val < win0_4.index t 2 * 64 + 64
              omega

/-- The kernel's run, read: both result arrays hold the reference's results, the arguments are unchanged. -/
theorem run : θ_run defs (onTc (τ := τ) (main (F := Ideal))) ⟨m, fun _ => 0, ρ⟩ fun r => ∀ c : Dev nD,
      r.2.mem ((c : Thread nD τ).loc main_v3_0) = Cert.ReferenceIdeal.Read.val_main_v15 (F := Ideal)
          (m ((c : Thread nD τ).loc main_arg0)) (m ((c : Thread nD τ).loc main_arg1)) (m ((c : Thread nD τ).loc main_arg2))
          (m ((c : Thread nD τ).loc main_arg3))
      ∧ r.2.mem ((c : Thread nD τ).loc main_v3_1) = Cert.ReferenceIdeal.Read.val_main_v14 (F := Ideal)
          (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_out m hq hk c), (h c).2.1.trans (final_attn m hq hk c), (h c).2.2⟩)
    (run_blocks m ρ)

end

end Cert.Attn.Blocks

end
-- ==== Proof.LibFiniteEntry.lean ====
/-
  General facts about the printed test "every entry of a float array has absolute value below +∞", read at the ideal
  values, where a float is an extended real.

  * The f32 pattern 0x7F800000 denotes +∞.
  * An extended real whose absolute value max(x, -x) is below +∞ is neither infinity, hence a real number.
  * A strict comparison of extended reals that came out true is the strict inequality.
  * So one entry of the printed test `|a| < +∞` (the array's absolute value compared, entry by entry, with the
    broadcast +∞ pattern) that came out true says that entry of `a` is a real number — at any shape.
-/
import Idealize.ShloMosaic.PureOps.Ideal.Laws
import Idealize.ShloMosaic.Lib.ValueIdx

noncomputable section

namespace Cert.LibFiniteEntry

open Idealize.ShloMosaic

/-- The f32 pattern of +∞ denotes +∞. -/
theorem ofBits_inf_f32 : Ideal.ofBits .f32 0x7F800000#32 = ⊤ := by
  simp [Ideal.ofBits, Ideal.ieee]

/-- An extended real whose absolute value is below +∞ is a real. -/
theorem real_of_abs_lt_top (x : EReal) (h : max x (-x) < ⊤) : ∃ r : ℝ, x = (r : EReal) := by
  have hb : x ≠ ⊥ := by
    rintro rfl
    rw [EReal.neg_bot, max_eq_right bot_le] at h
    exact lt_irrefl _ h
  have ht : x ≠ ⊤ := by
    rintro rfl
    rw [EReal.neg_top, max_eq_left bot_le] at h
    exact lt_irrefl _ h
  exact ⟨x.toReal, (EReal.coe_toReal ht hb).symm⟩

/-- A strict comparison of extended reals that came out true. -/
theorem lt_of_cmp_olt {x y : EReal} (h : Ideal.cmp .olt x y = 1#1) : x < y := by
  by_contra hn
  have h0 : Ideal.cmp .olt x y = 0#1 := by simp [Ideal.cmp, hn]
  rw [h0] at h
  exact absurd h (by decide)

/-- One entry of the printed test `|a| < +∞` that came out true: that entry of `a` is a real. -/
theorem real_of_finite_test {s : Shape} (a : FVec Ideal s .f32) (hb : (⟨0, ![]⟩ : Shape).BroadcastsInDim s ![]) (j : s.Idx)
    (h : cmpf .olt (Host.absf a) (broadcastInDim s ![] hb (constant (F := Ideal) ⟨0, ![]⟩ .f32 0x7F800000#32)) j = 1#1) :
    ∃ r : ℝ, a j = (r : EReal) := by
  have hlt : max (a j) (-(a j)) < Ideal.ofBits .f32 0x7F800000#32 := lt_of_cmp_olt h
  rw [ofBits_inf_f32] at hlt
  exact real_of_abs_lt_top _ hlt

end Cert.LibFiniteEntry

end
-- ==== Proof.Finite.lean ====
/-
  What the precondition says: every entry of the queries, the keys and the values is a real number.

  The printed test is the conjunction of three "all entries have absolute value below plus infinity" tests, one per
  float argument. If it comes out true then each of the three reductions by "and" came out true, so each compared
  entry came out true, and an extended real whose absolute value is below plus infinity is a real number.
-/
import proofs.«105021_j11304353923418_2_alg».proof.Pre_finite_inputs
import proofs.«105021_j11304353923418_2_alg».proof.Proof.LibFiniteEntry
import Idealize.ShloMosaic.Lib.ReduceAll
import Idealize.ShloMosaic.Lib.ValueIdx

noncomputable section

namespace Cert.Attn.Finite

open Idealize.ShloMosaic Cert.Pre_finite_inputs

variable [Cert.Pre_finite_inputs.Facts]

/-- A rank-zero array has one index. -/
instance : Subsingleton S_.Idx := ⟨fun _ _ => funext fun d => d.elim0⟩

/-- The test true everywhere makes every entry of the three float arguments a real number. -/
theorem reals_of_test (q k v : FVec Ideal S32x2048x64 .f32) (mask : IVec S32x2048x2048 1)
    (h : Cert.Pre_finite_inputs.fn (F := Ideal) q k v mask = fun _ => 1#1) :
    (∀ i, ∃ r : ℝ, q i = (r : EReal)) ∧ (∀ i, ∃ r : ℝ, k i = (r : EReal)) ∧ (∀ i, ∃ r : ℝ, v i = (r : EReal)) := by
  have h0 := congrFun h ValueIdx.ix0
  dsimp only [Cert.Pre_finite_inputs.fn] at h0
  obtain ⟨h38, h12⟩ := IntOp.andi_eq_one.mp h0
  obtain ⟨h3, h7⟩ := IntOp.andi_eq_one.mp h38
  exact ⟨fun i => Cert.LibFiniteEntry.real_of_finite_test q _ i (Host.reduce_andi_all _ _ _ _ _ h3 i),
    fun i => Cert.LibFiniteEntry.real_of_finite_test k _ i (Host.reduce_andi_all _ _ _ _ _ h7 i),
    fun i => Cert.LibFiniteEntry.real_of_finite_test v _ i (Host.reduce_andi_all _ _ _ _ _ h12 i)⟩

end Cert.Attn.Finite

end
-- ==== Proof.lean ====
/-
  Scaled dot-product attention over 32 batches of 2048 rows of 64 features, with a Boolean mask: the kernel against the
  plain reference, over the extended reals.

  Both programs return, for each batch, the matrix softmax(masked(Q Kᵀ) / 8) and its product with V. The kernel
  scales the queries by one eighth before the product with the keys and masks afterwards; the reference masks the
  product and divides by eight afterwards. Dividing minus infinity by eight leaves it alone, and for REAL queries and
  keys an inner product with one row scaled by the exact real one eighth is the inner product divided by eight; this is
  where the precondition (every float input finite) is used. From the scores on, the two programs are the same
  expression entry by entry: the row maximum as a fold of max from minus infinity, the exponentials of the differences,
  their row sum from zero, the quotient, and the inner products with the value columns. A change of float format is the
  identity on extended reals, so the kernel's narrower matrix-unit inputs change nothing.

  The kernel tiles each batch's query rows in four blocks of 512; each grid point writes one block of each result, the
  blocks cover both results, and the arguments end unchanged. The idealization rewrote nothing, so it is preserved
  trivially.
-/
import proofs.«105021_j11304353923418_2_alg».proof.Defs
import proofs.«105021_j11304353923418_2_alg».proof.Proof.Gen.Kernel
import proofs.«105021_j11304353923418_2_alg».proof.Proof.Gen.Kernel.Skeleton
import proofs.«105021_j11304353923418_2_alg».proof.Proof.Gen.Kernel.Launch
import proofs.«105021_j11304353923418_2_alg».proof.Proof.Gen.Kernel.Points
import proofs.«105021_j11304353923418_2_alg».proof.Proof.Gen.Kernel.Frame
import proofs.«105021_j11304353923418_2_alg».proof.Proof.Gen.KernelIdeal
import proofs.«105021_j11304353923418_2_alg».proof.Proof.Gen.KernelIdeal.Skeleton
import proofs.«105021_j11304353923418_2_alg».proof.Proof.Gen.KernelIdeal.Launch
import proofs.«105021_j11304353923418_2_alg».proof.Proof.Gen.KernelIdeal.Points
import proofs.«105021_j11304353923418_2_alg».proof.Proof.Gen.KernelIdeal.Frame
import proofs.«105021_j11304353923418_2_alg».proof.Proof.Gen.ReferenceIdeal
import proofs.«105021_j11304353923418_2_alg».proof.Proof.Gen.Pre_finite_inputs
import proofs.«105021_j11304353923418_2_alg».proof.Proof.Gen.KernelIdeal.Value
import proofs.«105021_j11304353923418_2_alg».proof.Proof.Gen.ReferenceIdeal.Run
import proofs.«105021_j11304353923418_2_alg».proof.Proof.Gen.ReferenceIdeal.Read
import Idealize.ShloMosaic.Adequacy
import Idealize.ShloMosaic.Init
import proofs.«105021_j11304353923418_2_alg».proof.Proof.Blocks
import proofs.«105021_j11304353923418_2_alg».proof.Proof.Finite

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernel_ideal : Cert.frame_KernelIdeal := fun m ρ _ => Cert.KernelIdeal.Gen.frame m ρ

/-- The idealized reference runs and leaves its arguments unchanged: its run, with the results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- Both idealized programs end with the reference's two results as functions of the (agreeing) arguments. -/
theorem algebraic : Cert.algebraic_KernelIdeal_ReferenceIdeal := by
  intro m ρ m' ρ' hpre hagree
  have hfin := fun c => Cert.Attn.Finite.reals_of_test _ _ _ _ (hpre c)
  refine ⟨_, _, Cert.Attn.Blocks.run m ρ (fun c => (hfin c).1) (fun c => (hfin c).2.1), ?_⟩
  refine (θ_run Cert.ReferenceIdeal.defs _ _).mono (fun _ h c => ?_) (Cert.ReferenceIdeal.Value.run (F := Ideal) m' ρ')
  obtain ⟨h15, h14, hrest⟩ := h c
  refine ⟨h15.trans ?_, h14.trans ?_, hrest⟩
  · rw [Cert.ReferenceIdeal.Read.val_main_v15_eq, (hagree c).1, (hagree c).2.1, (hagree c).2.2.1, (hagree c).2.2.2]
  · rw [Cert.ReferenceIdeal.Read.val_main_v14_eq, (hagree c).1, (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
